-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S2x800000 : Shape := ⟨2, ![2, 800000]⟩
abbrev S160x256 : Shape := ⟨2, ![160, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S160x256 : S_.BroadcastsInDim S160x256 (![] : Fin 0 → Fin S160x256.rank)
  reducesTo_S160x256_S_d0_1 : S160x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S50000x32 .f32) (main_arg2 : IVec S2x800000 32) (main_arg3 : FVec F S160x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S160x256 .f32 := Host.absf main_arg3
  let main_cst_2 : FVec F S_ .f32 := constant S_ .f32 0x7F800000#32
  let main_v10 : FVec F S160x256 .f32 := broadcastInDim S160x256 ![] bcast_S_S160x256 main_cst_2
  let main_v11 : IVec S160x256 1 := cmpf .olt main_v9 main_v10
  let main_c_3 : IVec S_ 1 := constantI S_ 1 1#1
  let main_v12 : IVec S_ 1 := (fun x v => Host.reduce IntOp.andi x v reducesTo_S160x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S50000x32 : Shape := ⟨2, ![50000, 32]⟩
abbrev S2x800000 : Shape := ⟨2, ![2, 800000]⟩
abbrev S160x256 : Shape := ⟨2, ![160, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x160 : Shape := ⟨2, ![50000, 160]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S5000x160 : Shape := ⟨2, ![5000, 160]⟩
abbrev S5000x256 : Shape := ⟨2, ![5000, 256]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 94
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x32, .f32⟩
  | .hbm, ⟨2, _⟩ => ⟨S2x800000, .i32⟩
  | .hbm, ⟨3, _⟩ => ⟨S160x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x160, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S50000, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S800000x1, .f32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x1, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x1, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S1x256, .f32⟩
  | .hbm, ⟨93, _⟩ => ⟨S50000x256, .f32⟩
  | .local _ .vmem, ⟨0, _⟩ => ⟨S5000x160, .f32⟩
  | .local _ .vmem, ⟨1, _⟩ => ⟨S5000x160, .f32⟩
  | .local _ .vmem, ⟨2, _⟩ => ⟨S160x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x128_S50000x32_S50000x160_d1 : Shape.Concatenates [S50000x128, S50000x32] S50000x160 1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  bitsLt_bf16_f32 : FTy.bits .bf16 < FTy.bits .f32
  inb_S160x256_S160x256_0_0 : ∀ a, (![0, 0] : Fin 2 → Nat) a + S160x256.size a ≤ S160x256.size a
  h_S160x256 : 0 < S160x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x160_S160x256_S5000x256_1_0_0_1_n_n_wf : DotDims.WF S5000x160 S160x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x160.size a ≤ S50000x160.size a
  hwx0_0 : ∀ i : grid0.Coords, EltTy.bits .f32 = 32 ∨ (Rect.block (s := S50000x160) S5000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x256.size a ≤ S160x256.size a
  hwx0_1 : ∀ i : grid0.Coords, EltTy.bits .f32 = 32 ∨ (Rect.block (s := S160x256) S160x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x160_S160x256_S5000x256_1_0_0_1_n_n : DotDims S5000x160 S160x256 S5000x256 where
  lhsContracting := [1]
  rhsContracting := [0]
  lhsNonContracting := [0]
  rhsNonContracting := [1]
  lhsBatch := []
  rhsBatch := []
  wf := dot_S5000x160_S160x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v4) S5000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S160x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S2x800000 : Shape := ⟨2, ![2, 800000]⟩
abbrev S160x256 : Shape := ⟨2, ![160, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x160 : Shape := ⟨2, ![50000, 160]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S50000x32, .f32⟩
  | 2 => ⟨S2x800000, .i32⟩
  | 3 => ⟨S160x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S1x800000, .i32⟩
  | 10 => ⟨S800000, .i32⟩
  | 11 => ⟨S1x800000, .i32⟩
  | 12 => ⟨S800000, .i32⟩
  | 13 => ⟨S50000x160, .f32⟩
  | 14 => ⟨S50000x256, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x1, .f32⟩
  | 56 => ⟨S800000x256, .f32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S50000, .f32⟩
  | 63 => ⟨S50000x1, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S800000x1, .f32⟩
  | 115 => ⟨S800000x256, .f32⟩
  | 116 => ⟨S800000x256, .f32⟩
  | 117 => ⟨S_, .f32⟩
  | 118 => ⟨S50000x256, .f32⟩
  | 119 => ⟨S800000x1, .i32⟩
  | 120 => ⟨S50000x256, .f32⟩
  | 121 => ⟨S50000, .f32⟩
  | 122 => ⟨S50000x1, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S_, .f32⟩
  | 2 => ⟨S50000x256, .f32⟩
  | 3 => ⟨S50000x256, .f32⟩
  | 4 => ⟨S50000x256, .f32⟩
  | 5 => ⟨S1x256, .f32⟩
  | 6 => ⟨S50000x256, .f32⟩
  | 7 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_call1_cst : Ref sig .tc := ⟨.hbm, 129, rfl⟩
abbrev main_call1_v0 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x128_S50000x32_S50000x160_d1 : Shape.Concatenates [S50000x128, S50000x32] S50000x160 1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x160_S160x256_S50000x256_1_0_0_1_n_n_wf : DotDims.WF S50000x160 S160x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x160_S160x256_S50000x256_1_0_0_1_n_n : DotDims S50000x160 S160x256 S50000x256 where
  lhsContracting := [1]
  rhsContracting := [0]
  lhsNonContracting := [0]
  rhsNonContracting := [1]
  lhsBatch := []
  rhsBatch := []
  wf := dot_S50000x160_S160x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its result named.

  @main is nine segments: four stretches of host operations and five grids of row blocks.  The contents of every
  buffer at each segment boundary are a fold from the launch memory (`Gen.W0 … Gen.W9`): a stretch applies its
  operations, a grid replaces its output array by what its points wrote back and leaves every other buffer alone.
  Every weakly fair execution terminates without a fault in a state whose unscoped buffers hold the last boundary's
  contents; read at the result array that is `Gen.W9 … main_v70`, and at an argument array its launch contents.
-/
import proofs.«178289_j64682207478387_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the nine argument arrays as launched. -/
theorem run : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Named

end
-- ==== Proof.Spec.lean ====
/-
  The three whole-array functions the node-feature pipeline is made of, over the extended reals.

  A graph-convolution layer multiplies the node features by a weight matrix, mixes the rows along the edges, adds a
  bias to every row and clips at zero; the last layer is a plain matrix product plus a bias.  Read index by index:
  * `mm A B` at `(r, q)` is the sum over the contracted coordinate `c` of `A (r, c) * B (c, q)`;
  * `biasReluRow A y` at `(r, q)` is the larger of `A (r, q) + y (0, q)` and the zero word, `y` a one-row matrix;
  * `mmBiasRow A B y` at `(r, q)` is `mm A B (r, q) + y (0, q)`.
  Row `r` of each result depends on row `r` of `A` alone, which is why a product computed on consecutive blocks of
  rows is the product of the whole array.
-/
import Idealize.ShloMosaic.PureOps.Ideal
import Idealize.ShloMosaic.Lib.ValueIdx

noncomputable section

namespace Cert.Gcn

open Idealize.ShloMosaic Idealize.ShloMosaic.ValueIdx

/-- The matrix product `[m, k] × [k, n] → [m, n]` as a plain sum over the contracted coordinate. -/
def mm {m k n : ℕ} (A : FVec Ideal ⟨2, ![m, k]⟩ .f32) (B : FVec Ideal ⟨2, ![k, n]⟩ .f32) :
    FVec Ideal ⟨2, ![m, n]⟩ .f32 :=
  fun i => ∑ c : Fin k, A (ix2 (i 0 : Fin m) c) * B (ix2 c (i 1 : Fin n))

/-- A one-row matrix added to every row, then the maximum with the zero word. -/
def biasReluRow {m n : ℕ} (A : FVec Ideal ⟨2, ![m, n]⟩ .f32) (y : FVec Ideal ⟨2, ![1, n]⟩ .f32) :
    FVec Ideal ⟨2, ![m, n]⟩ .f32 :=
  fun i => max (A i + y (ix2 (0 : Fin 1) (i 1 : Fin n))) (Ideal.ofBits .f32 0x00000000#32)

/-- The matrix product with a one-row matrix added to every row. -/
def mmBiasRow {m k n : ℕ} (A : FVec Ideal ⟨2, ![m, k]⟩ .f32) (B : FVec Ideal ⟨2, ![k, n]⟩ .f32)
    (y : FVec Ideal ⟨2, ![1, n]⟩ .f32) : FVec Ideal ⟨2, ![m, n]⟩ .f32 :=
  fun i => mm A B i + y (ix2 (0 : Fin 1) (i 1 : Fin n))

theorem mm_apply {m k n : ℕ} (A : FVec Ideal ⟨2, ![m, k]⟩ .f32) (B : FVec Ideal ⟨2, ![k, n]⟩ .f32)
    (r : Fin m) (q : Fin n) : mm A B (ix2 r q) = ∑ c : Fin k, A (ix2 r c) * B (ix2 c q) := rfl

theorem biasReluRow_apply {m n : ℕ} (A : FVec Ideal ⟨2, ![m, n]⟩ .f32) (y : FVec Ideal ⟨2, ![1, n]⟩ .f32)
    (r : Fin m) (q : Fin n) :
    biasReluRow A y (ix2 r q) = max (A (ix2 r q) + y (ix2 (0 : Fin 1) q)) (Ideal.ofBits .f32 0x00000000#32) := rfl

theorem mmBiasRow_apply {m k n : ℕ} (A : FVec Ideal ⟨2, ![m, k]⟩ .f32) (B : FVec Ideal ⟨2, ![k, n]⟩ .f32)
    (y : FVec Ideal ⟨2, ![1, n]⟩ .f32) (r : Fin m) (q : Fin n) :
    mmBiasRow A B y (ix2 r q) = (∑ c : Fin k, A (ix2 r c) * B (ix2 c q)) + y (ix2 (0 : Fin 1) q) := rfl

end Cert.Gcn

end
-- ==== Proof.HostChain.lean ====
/-
  The host glue of the two graph-convolution layers as functions, and the whole network as their composition.

  With `src`, `dst` the two rows of the edge list: an index below zero is wrapped by the node count (`wrapIdx`); the
  degree of a node is one plus the number of edges that end in it, `dis` its power `-1/2` (`disOf`); an edge's weight is
  `dis (src) * dis (dst)` (`normOf`) and a node's own weight `dis * dis` (`selfOf`).  One mixing step `conv x` gathers
  row `src e` of `x` for every edge `e`, scales it by the edge's weight, adds it into row `dst e` of a zero array,
  and adds `x` scaled row by row by the nodes' own weights.  The network (`layers`) is: concatenate the two feature
  arrays, multiply by the first weight matrix, mix, add the bias and clip at zero; multiply by the second weight
  matrix, mix, add the bias and clip at zero; multiply by the last weight matrix and add the last bias.
-/
import proofs.«178289_j64682207478387_1_alg».proof.Proof.Gen.KernelIdeal
import proofs.«178289_j64682207478387_1_alg».proof.Proof.Spec

noncomputable section

namespace Cert.KernelIdeal.Chain

open Cert.KernelIdeal Cert.KernelIdeal.Gen Idealize.ShloMosaic Cert.Gcn

/-- Row 0 of the edge list: where each edge starts. -/
def srcOf (e : IVec S2x800000 32) : IVec S800000 32 :=
  shapeCast S800000 (extractStridedSlice S1x800000 ![0, 0] e slices_S2x800000_S1x800000_0_0) shapeCasts_S1x800000_S800000

/-- Row 1 of the edge list: where each edge ends. -/
def dstOf (e : IVec S2x800000 32) : IVec S800000 32 :=
  shapeCast S800000 (extractStridedSlice S1x800000 ![1, 0] e slices_S2x800000_S1x800000_1_0) shapeCasts_S1x800000_S800000

/-- A node index below zero counted from the end: `s + 50000` where `s < 0`, else `s`. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- `(1 + number of edges ending in the node) ^ (-1/2)`. -/
def disOf (e : IVec S2x800000 32) : FVec Ideal S50000 .f32 :=
  Host.powf
    (addf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 (dstOf e))
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- An edge's weight: the product of `dis` at its two ends. -/
def normOf (e : IVec S2x800000 32) : FVec Ideal S800000 .f32 :=
  mulf
    (Host.gather gather_S50000_S800000x1_S800000_n_0_n_n_0_1_1 (disOf e)
      (broadcastInDim S800000x1 ![0] bcast_S800000_S800000x1_0 (wrapIdx (srcOf e))))
    (Host.gather gather_S50000_S800000x1_S800000_n_0_n_n_0_1_1 (disOf e)
      (broadcastInDim S800000x1 ![0] bcast_S800000_S800000x1_0 (wrapIdx (dstOf e))))

/-- A node's own weight: `dis * dis`. -/
def selfOf (e : IVec S2x800000 32) : FVec Ideal S50000 .f32 :=
  mulf (disOf e) (disOf e)

/-- One mixing step along the edges, from the edge ends `s`, `d`, the edge weights `w` and the nodes' own weights `u`. -/
def conv (x : FVec Ideal S50000x256 .f32)
    (s d : IVec S800000 32)
    (w : FVec Ideal S800000 .f32)
    (u : FVec Ideal S50000 .f32) : FVec Ideal S50000x256 .f32 :=
  addf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (mulf
        (Host.gather gather_S50000x256_S800000x1_S800000x256_1_0_n_n_0_1_1256 x
          (broadcastInDim S800000x1 ![0] bcast_S800000_S800000x1_0 (wrapIdx s)))
        (broadcastInDim S800000x256 ![0, 1] bcast_S800000x1_S800000x256_0_1
          (broadcastInDim S800000x1 ![0] bcast_S800000_S800000x1_0 w))))
    (mulf x
      (broadcastInDim S50000x256 ![0, 1] bcast_S50000x1_S50000x256_0_1
        (broadcastInDim S50000x1 ![0] bcast_S50000_S50000x1_0 u)))

/-- The two feature arrays side by side. -/
def catOf (x0 : FVec Ideal S50000x128 .f32) (x1 : FVec Ideal S50000x32 .f32) :
    FVec Ideal S50000x160 .f32 :=
  concatenate S50000x160 1 [⟨S50000x128, x0⟩, ⟨S50000x32, x1⟩] concatenates_S50000x128_S50000x32_S50000x160_d1

/-- A bias vector as a one-row matrix. -/
def rowOf (b : FVec Ideal S256 .f32) : FVec Ideal S1x256 .f32 :=
  shapeCast S1x256 b shapeCasts_S256_S1x256

/-- The first layer's output from the arguments. -/
def layer1 (x0 : FVec Ideal S50000x128 .f32) (x1 : FVec Ideal S50000x32 .f32)
    (e : IVec S2x800000 32) (w1 : FVec Ideal S160x256 .f32)
    (b1 : FVec Ideal S256 .f32) : FVec Ideal S50000x256 .f32 :=
  biasReluRow (conv (mm (catOf x0 x1) w1) (srcOf e) (dstOf e) (normOf e) (selfOf e)) (rowOf b1)

/-- The second layer's output from the first's. -/
def layer2 (h : FVec Ideal S50000x256 .f32)
    (e : IVec S2x800000 32) (w2 : FVec Ideal S256x256 .f32)
    (b2 : FVec Ideal S256 .f32) : FVec Ideal S50000x256 .f32 :=
  biasReluRow (conv (mm h w2) (srcOf e) (dstOf e) (normOf e) (selfOf e)) (rowOf b2)

/-- The whole network from the nine arguments. -/
def layers (x0 : FVec Ideal S50000x128 .f32) (x1 : FVec Ideal S50000x32 .f32)
    (e : IVec S2x800000 32) (w1 : FVec Ideal S160x256 .f32)
    (b1 : FVec Ideal S256 .f32) (w2 : FVec Ideal S256x256 .f32)
    (b2 : FVec Ideal S256 .f32) (w3 : FVec Ideal S256x256 .f32)
    (b3 : FVec Ideal S256 .f32) : FVec Ideal S50000x256 .f32 :=
  mmBiasRow (layer2 (layer1 x0 x1 e w1 b1) e w2 b2) w3 (rowOf b3)

end Cert.KernelIdeal.Chain

end
-- ==== Proof.Stretches.lean ====
/-
  The four stretches of host operations between the grids, read once each over ANY buffer contents `W` they start from.

  The first stretch cuts the edge list into its two rows, lays the two feature arrays side by side, and computes the
  edge weights and the nodes' own weights from the degrees.  The second and the third each take a product array and
  the same five edge quantities and make one mixing step, and turn a bias vector into a one-row matrix.  The last
  turns the last bias vector into a one-row matrix.  Each result is the named function of the buffers the stretch
  reads, whatever they hold: the functions are never opened.
-/
import proofs.«178289_j64682207478387_1_alg».proof.Proof.Gen.KernelIdeal.Launch
import Idealize.ShloMosaic.Lib.StableHlo.Run
import proofs.«178289_j64682207478387_1_alg».proof.Proof.HostChain

noncomputable section

namespace Cert.KernelIdeal.Stretch

open Cert.KernelIdeal Cert.KernelIdeal.Gen Cert.KernelIdeal.Chain
open Idealize.ShloMosaic Idealize.ShloMosaic.TcCoe Idealize.ShloMosaic.StableHlo Idealize.SL.Sem

variable (W : Valuation τ sig (Elt Ideal))

/-! ## Before the first grid -/

theorem src_eq : after (hostOps0 (F := Ideal)) W (Proc.devRef .tc main_v1) = srcOf (W (Proc.devRef .tc main_arg2)) := by
  after_results_simp <;> rfl

theorem dst_eq : after (hostOps0 (F := Ideal)) W (Proc.devRef .tc main_v3) = dstOf (W (Proc.devRef .tc main_arg2)) := by
  after_results_simp <;> rfl

theorem cat_eq : after (hostOps0 (F := Ideal)) W (Proc.devRef .tc main_v4)
    = catOf (W (Proc.devRef .tc main_arg0)) (W (Proc.devRef .tc main_arg1)) := by
  after_results_simp <;> rfl

theorem norm_eq : after (hostOps0 (F := Ideal)) W (Proc.devRef .tc main_v27) = normOf (W (Proc.devRef .tc main_arg2)) := by
  after_results_simp <;> rfl

theorem self_eq : after (hostOps0 (F := Ideal)) W (Proc.devRef .tc main_v28) = selfOf (W (Proc.devRef .tc main_arg2)) := by
  after_results_simp <;> rfl

/-! ## Between the first product and the first bias-and-clip -/

theorem conv1_eq : after (hostOps1 (F := Ideal)) W (Proc.devRef .tc main_v46)
    = conv (W (Proc.devRef .tc main_v29)) (W (Proc.devRef .tc main_v1)) (W (Proc.devRef .tc main_v3))
        (W (Proc.devRef .tc main_v27)) (W (Proc.devRef .tc main_v28)) := by
  after_results_simp <;> rfl

theorem row1_eq : after (hostOps1 (F := Ideal)) W (Proc.devRef .tc main_v47) = rowOf (W (Proc.devRef .tc main_arg4)) := by
  after_results_simp <;> rfl

/-! ## Between the second product and the second bias-and-clip -/

theorem conv2_eq : after (hostOps3 (F := Ideal)) W (Proc.devRef .tc main_v66)
    = conv (W (Proc.devRef .tc main_v49)) (W (Proc.devRef .tc main_v1)) (W (Proc.devRef .tc main_v3))
        (W (Proc.devRef .tc main_v27)) (W (Proc.devRef .tc main_v28)) := by
  after_results_simp <;> rfl

theorem row2_eq : after (hostOps3 (F := Ideal)) W (Proc.devRef .tc main_v67) = rowOf (W (Proc.devRef .tc main_arg6)) := by
  after_results_simp <;> rfl

/-! ## Before the last grid -/

theorem row3_eq : after (hostOps4 (F := Ideal)) W (Proc.devRef .tc main_v69) = rowOf (W (Proc.devRef .tc main_arg8)) := by
  after_results_simp <;> rfl

end Cert.KernelIdeal.Stretch

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.SpecForms.lean ====
/-
  The three whole-array functions of the specification in the two spellings a kernel body and a host program give
  them, over the extended reals.

  A product: the body rounds both operands to a narrower format (the identity on exact values) and multiplies into a
  zero accumulator; the host multiplies with no accumulator; either way entry `(r, q)` is the sum over `c` of
  `A (r, c) * B (c, q)`.  A bias row: the body casts the one-row matrix to its own shape and lays it down the rows, the
  host lays it down along both axes; either way entry `(r, q)` of the laid-down array is `y (0, q)`.  The zero the
  sum is clipped at is a splat of the zero word in the body and a scalar constant laid out in no dimension on the host.
-/
import Idealize.ShloMosaic.Lib.ValueIdx
import Idealize.ShloMosaic.Lib.Pipeline.Value
import Idealize.ShloMosaic.Lib.KernelVsHost
import Idealize.ShloMosaic.PureOps.Ideal.Laws
import proofs.«178289_j64682207478387_1_alg».proof.Proof.Spec
import proofs.«178289_j64682207478387_1_alg».proof.Proof.LibDotIdx
import proofs.«178289_j64682207478387_1_alg».proof.Proof.LibRows

noncomputable section

namespace Cert.Gcn

open Idealize.ShloMosaic Idealize.ShloMosaic.ValueIdx

variable {m k n : ℕ}

/-! ## The product -/

/-- The body's product of the two operands rounded to a narrower format (the left one cast to its own shape first),
    into a zero accumulator. -/
theorem matmul_rounded_eq_mm {ψ₁ ψ₂ : FTy}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32)
    (hA : (⟨2, ![m, k]⟩ : Shape).ShapeCasts ⟨2, ![m, k]⟩)
    (h₁ : ψ₁.bits < FTy.f32.bits) (h₂ : ψ₂.bits < FTy.f32.bits) :
    matmul (⟨[1], [0], [0], [1], [], [], w⟩ : DotDims _ _ _) none (truncf ψ₁ (shapeCast ⟨2, ![m, k]⟩ A hA) h₁)
        (truncf ψ₂ B h₂) (constant ⟨2, ![m, n]⟩ .f32 0x00000000#32) = mm A B := by
  rw [shapeCast_self]
  funext i
  obtain ⟨r, q, rfl⟩ : ∃ (r : Fin m) (q : Fin n), i = ix2 r q := ⟨i 0, i 1, eq_ix2 i⟩
  exact (DotIdx.matmul_plain_zero_apply w none (truncf ψ₁ A h₁) (truncf ψ₂ B h₂) r q).trans rfl

/-- The host's product. -/
theorem dotGeneral_eq_mm
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) :
    Host.dotGeneral (⟨[1], [0], [0], [1], [], [], w⟩ : DotDims _ _ _) none A B = mm A B := by
  rw [← matmul_zero_eq_dotGeneral]
  funext i
  obtain ⟨r, q, rfl⟩ : ∃ (r : Fin m) (q : Fin n), i = ix2 r q := ⟨i 0, i 1, eq_ix2 i⟩
  exact DotIdx.matmul_plain_zero_apply w none A B r q

/-! ## The bias row laid down the rows -/

/-- The host's one-row matrix laid down along both axes is the body's laid down the rows. -/
theorem hostRow_apply (y : FVec Ideal ⟨2, ![1, n]⟩ .f32)
    (hd : (⟨2, ![1, n]⟩ : Shape).BroadcastsInDim ⟨2, ![m, n]⟩ ![0, 1]) (r : Fin m) (q : Fin n) :
    broadcastInDim ⟨2, ![m, n]⟩ ![0, 1] hd y (ix2 r q) = y (ix2 (0 : Fin 1) q) :=
  broadcastInDim_oneRow_apply hd y r q

/-! ## Bias and clip -/

/-- The body's spelling: same-shape casts, the row laid down the rows, the sum, the maximum with a splat of the zero word. -/
theorem biasRelu_kernel (A : FVec Ideal ⟨2, ![m, n]⟩ .f32) (y : FVec Ideal ⟨2, ![1, n]⟩ .f32)
    (hA : (⟨2, ![m, n]⟩ : Shape).ShapeCasts ⟨2, ![m, n]⟩) (hy : (⟨2, ![1, n]⟩ : Shape).ShapeCasts ⟨2, ![1, n]⟩)
    (hb : (⟨2, ![1, n]⟩ : Shape).Broadcasts ⟨2, ![m, n]⟩) :
    maximumf (addf (shapeCast ⟨2, ![m, n]⟩ A hA) (broadcastTo ⟨2, ![m, n]⟩ (shapeCast ⟨2, ![1, n]⟩ y hy) hb))
        (broadcast ⟨2, ![m, n]⟩ (Scalar.ofBits (F := Ideal) .f32 0x00000000#32)) = biasReluRow A y := by
  funext i
  obtain ⟨r, q, rfl⟩ : ∃ (r : Fin m) (q : Fin n), i = ix2 r q := ⟨i 0, i 1, eq_ix2 i⟩
  show max (shapeCast ⟨2, ![m, n]⟩ A hA (ix2 r q)
      + broadcastTo ⟨2, ![m, n]⟩ (shapeCast ⟨2, ![1, n]⟩ y hy) hb (ix2 r q)) _ = _
  rw [shapeCast_self, Cert.LibRows.broadcastTo_oneRow_apply]
  rfl

/-- The host's spelling: the row laid down along both axes, the sum, the maximum with the zero constant laid out. -/
theorem biasRelu_host (A : FVec Ideal ⟨2, ![m, n]⟩ .f32) (y : FVec Ideal ⟨2, ![1, n]⟩ .f32)
    (hd : (⟨2, ![1, n]⟩ : Shape).BroadcastsInDim ⟨2, ![m, n]⟩ ![0, 1])
    (hz : (⟨0, ![]⟩ : Shape).BroadcastsInDim ⟨2, ![m, n]⟩ ![]) :
    maximumf (addf A (broadcastInDim ⟨2, ![m, n]⟩ ![0, 1] hd y))
        (broadcastInDim ⟨2, ![m, n]⟩ ![] hz (constant (F := Ideal) ⟨0, ![]⟩ .f32 0x00000000#32)) = biasReluRow A y := by
  funext i
  obtain ⟨r, q, rfl⟩ : ∃ (r : Fin m) (q : Fin n), i = ix2 r q := ⟨i 0, i 1, eq_ix2 i⟩
  show max (A (ix2 r q) + broadcastInDim ⟨2, ![m, n]⟩ ![0, 1] hd y (ix2 r q)) _ = _
  rw [hostRow_apply]
  rfl

/-! ## Product plus bias -/

/-- The body's spelling of the last layer. -/
theorem mmBias_kernel {ψ₁ ψ₂ : FTy}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (y : FVec Ideal ⟨2, ![1, n]⟩ .f32)
    (hA : (⟨2, ![m, k]⟩ : Shape).ShapeCasts ⟨2, ![m, k]⟩)
    (h₁ : ψ₁.bits < FTy.f32.bits) (h₂ : ψ₂.bits < FTy.f32.bits)
    (hy : (⟨2, ![1, n]⟩ : Shape).ShapeCasts ⟨2, ![1, n]⟩) (hb : (⟨2, ![1, n]⟩ : Shape).Broadcasts ⟨2, ![m, n]⟩) :
    addf (matmul (⟨[1], [0], [0], [1], [], [], w⟩ : DotDims _ _ _) none (truncf ψ₁ (shapeCast ⟨2, ![m, k]⟩ A hA) h₁)
          (truncf ψ₂ B h₂) (constant ⟨2, ![m, n]⟩ .f32 0x00000000#32))
        (broadcastTo ⟨2, ![m, n]⟩ (shapeCast ⟨2, ![1, n]⟩ y hy) hb) = mmBiasRow A B y := by
  rw [matmul_rounded_eq_mm w A B hA h₁ h₂]
  funext i
  obtain ⟨r, q, rfl⟩ : ∃ (r : Fin m) (q : Fin n), i = ix2 r q := ⟨i 0, i 1, eq_ix2 i⟩
  show mm A B (ix2 r q) + broadcastTo ⟨2, ![m, n]⟩ (shapeCast ⟨2, ![1, n]⟩ y hy) hb (ix2 r q) = _
  rw [Cert.LibRows.broadcastTo_oneRow_apply]
  rfl

/-- The host's spelling of the last layer. -/
theorem mmBias_host
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (y : FVec Ideal ⟨2, ![1, n]⟩ .f32)
    (hd : (⟨2, ![1, n]⟩ : Shape).BroadcastsInDim ⟨2, ![m, n]⟩ ![0, 1]) :
    addf (Host.dotGeneral (⟨[1], [0], [0], [1], [], [], w⟩ : DotDims _ _ _) none A B)
        (broadcastInDim ⟨2, ![m, n]⟩ ![0, 1] hd y) = mmBiasRow A B y := by
  rw [dotGeneral_eq_mm]
  funext i
  obtain ⟨r, q, rfl⟩ : ∃ (r : Fin m) (q : Fin n), i = ix2 r q := ⟨i 0, i 1, eq_ix2 i⟩
  show mm A B (ix2 r q) + broadcastInDim ⟨2, ![m, n]⟩ ![0, 1] hd y (ix2 r q) = _
  rw [hostRow_apply]
  rfl

end Cert.Gcn

end
-- ==== Proof.Region0.lean ====
/-
  Grid 0: a matrix product computed on blocks of rows is the product of the whole array.

  Point `t` of the grid takes rows `5000 t … 5000 t + 4999` of the left array and the whole right array, and writes
  back rows `5000 t … 5000 t + 4999` of the output: at row `p` of the block and column `q` the sum over `k` of
  `x (5000 t + p, k) * w (k, q)` (both operands are rounded to a narrower format first, which changes no exact
  value, and the accumulator starts at zero).  That is entry `(5000 t + p, q)` of `mm x w`: row `r` of a product
  depends on row `r` of the left operand alone.  The ten blocks cover the fifty thousand rows (row `r` lies in block
  `r / 5000`), so the output array ends holding `mm x w`.
-/
import proofs.«178289_j64682207478387_1_alg».proof.Proof.Gen.KernelIdeal.Frame
import Idealize.ShloMosaic.Lib.Pipeline.Value
import proofs.«178289_j64682207478387_1_alg».proof.Proof.SpecForms

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's value from its two loaded blocks: their product. -/
theorem payload_eq (x0 : Vec Ideal S5000x160 .f32) (x1 : Vec Ideal S160x256 .f32) :
    k0_pay1 (F := Ideal) x0 x1 = mm x0 x1 :=
  matmul_rounded_eq_mm dot_S5000x160_S160x256_S5000x256_1_0_0_1_n_n_wf x0 x1 _ _ _

/-- The printed index maps over the grid: the left operand and the output move together down the rows, one block
    per point; the right operand stays put. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- The product of point `t`'s block of rows with the whole right array is point `t`'s block of the product. -/
theorem block_eq (A : FVec Ideal S50000x160 .f32) (B : FVec Ideal S160x256 .f32) (t : Fin cfg0.N) :
    (cfg0.win 2).cut (grid0.coords t)
        (mm (m := 5000) (k := 160) (n := 256) (((cfg0.win 0).blk t).view.read (Elt Ideal) A)
          (((cfg0.win 1).blk t).view.read (Elt Ideal) B))
      = ((cfg0.win 2).blk t).view.read (Elt Ideal) (mm A B) := by
  obtain ⟨e0, e1, e2, e3, e4, e5⟩ := index_maps t
  funext j
  obtain ⟨p, q, rfl⟩ : ∃ (p : Fin 5000) (q : Fin 256), j = ix2 p q := ⟨j 0, j 1, eq_ix2 j⟩
  show ∑ k' : Fin 160, A (((cfg0.win 0).blk t).view.emb (ix2 p k')) * B (((cfg0.win 1).blk t).view.emb (ix2 k' q))
      = ∑ k' : Fin 160, A (ix2 ((((cfg0.win 2).blk t).view.emb (ix2 p q)) 0 : Fin 50000) k')
          * B (ix2 k' ((((cfg0.win 2).blk t).view.emb (ix2 p q)) 1 : Fin 256))
  refine Finset.sum_congr rfl fun k' _ => ?_
  have h0 : ((cfg0.win 0).blk t).view.emb (ix2 p k')
      = ix2 ((((cfg0.win 2).blk t).view.emb (ix2 p q)) 0 : Fin 50000) k' := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 160 + 1 * k'.val = k'.val; omega
  have h1 : ((cfg0.win 1).blk t).view.emb (ix2 k' q)
      = ix2 k' ((((cfg0.win 2).blk t).view.emb (ix2 p q)) 1 : Fin 256) := by
    funext a; apply Fin.ext
    match a with
    | ⟨0, _⟩ => show win0_1.index t (0 : Fin 2) * 160 + 1 * k'.val = k'.val; omega
    | ⟨1, _⟩ => show win0_1.index t (1 : Fin 2) * 256 + 1 * q.val = win0_2.index t (1 : Fin 2) * 256 + 1 * q.val; omega
  rw [h0, h1]
  rfl

variable (V : (c : Dev nD) → (b : Ref sig .tc) → Buf (Elt Ideal) ((c : Thread nD τ).loc b))

/-- What point `t` writes back is its block of the product of the two arrays as the grid finds them. -/
theorem flushed_eq (c : Dev nD) (t : Fin cfg0.N) :
    (dat0 V c).flushed 2 t
      = ((cfg0.win 2).blk t).view.read (Elt Ideal) (mm (V c main_v4) (V c main_arg3)) := by
  show (cfg0.win 2).cut (grid0.coords t) ((dat0 V c).after 2 t) = _
  rw [after0_2]
  unfold out0_2
  rw [View.canon_unit_zero offsets_zero]
  simp only [View.ld_unit_zero (S := S5000x160) offsets_zero, View.ld_unit_zero (S := S160x256) offsets_zero]
  rw [payload_eq]
  exact block_eq (V c main_v4) (V c main_arg3) t

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v29).slice (win0_2.rect t)).set ↔ _
  rw [View.set_slice_whole, Rect.mem_set_unit]
  exact Iff.rfl

/-- Every index of the output array is in some point's block: row `r` in block `r / 5000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the grid: the product of the two whole arrays. -/
theorem arr (c : Dev nD) :
    (dat0 V c).arrAt 2 cfg0.N = mm (V c main_v4) (V c main_arg3) :=
  (dat0 V c).arrAt_eq_of_cover 2 _ (fun t _ => flushed_eq V c t) cover

end Cert.KernelIdeal.Region0

end
-- ==== Proof.Region1.lean ====
/-
  Grid 1: bias and clip, block by block, is bias and clip of the whole array.

  Point `t` of the grid takes rows `5000 t … 5000 t + 4999` of the input array, the whole one-row bias matrix, and
  writes back rows `5000 t … 5000 t + 4999` of the output: at row `p` of the block and column `q` the larger of
  `x (5000 t + p, q) + y (0, q)` and zero.  That is entry `(5000 t + p, q)` of `biasReluRow x y`, so every point
  writes back its block of that one array; the ten blocks cover the fifty thousand rows (row `r` lies in block
  `r / 5000`), and the output array ends holding it.
-/
import proofs.«178289_j64682207478387_1_alg».proof.Proof.Gen.KernelIdeal.Frame
import Idealize.ShloMosaic.Lib.Pipeline.Value
import proofs.«178289_j64682207478387_1_alg».proof.Proof.SpecForms

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's value from its two loaded blocks: the bias row added to every row, clipped at zero. -/
theorem payload_eq (x0 : Vec Ideal S5000x256 .f32) (x1 : Vec Ideal S1x256 .f32) :
    k1_pay1 (F := Ideal) x0 x1 = biasReluRow x0 x1 :=
  biasRelu_kernel x0 x1 _ _ _

/-- The printed index maps over the grid: the input and the output move together down the rows, one block per
    point; the bias row stays put. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- Bias and clip of point `t`'s input block and the bias row is point `t`'s block of bias and clip of the arrays. -/
theorem block_eq (A : FVec Ideal S50000x256 .f32) (y : FVec Ideal S1x256 .f32) (t : Fin cfg1.N) :
    (cfg1.win 2).cut (grid1.coords t)
        (biasReluRow (m := 5000) (n := 256) (((cfg1.win 0).blk t).view.read (Elt Ideal) A)
          (((cfg1.win 1).blk t).view.read (Elt Ideal) y))
      = ((cfg1.win 2).blk t).view.read (Elt Ideal) (biasReluRow A y) := by
  obtain ⟨e0, e1, e2, e3, e4, e5⟩ := index_maps t
  funext j
  obtain ⟨p, q, rfl⟩ : ∃ (p : Fin 5000) (q : Fin 256), j = ix2 p q := ⟨j 0, j 1, eq_ix2 j⟩
  show max (A (((cfg1.win 0).blk t).view.emb (ix2 p q))
        + y (((cfg1.win 1).blk t).view.emb (ix2 (0 : Fin 1) q))) (Ideal.ofBits .f32 0x00000000#32)
      = max (A (((cfg1.win 2).blk t).view.emb (ix2 p q))
        + y (ix2 (0 : Fin 1) ((((cfg1.win 2).blk t).view.emb (ix2 p q)) 1 : Fin 256))) (Ideal.ofBits .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q)
      = ix2 (0 : Fin 1) ((((cfg1.win 2).blk t).view.emb (ix2 p q)) 1 : Fin 256) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  rw [h0, h1]
  rfl

variable (V : (c : Dev nD) → (b : Ref sig .tc) → Buf (Elt Ideal) ((c : Thread nD τ).loc b))

/-- What point `t` writes back is its block of `biasReluRow` of the two arrays as the grid finds them. -/
theorem flushed_eq (c : Dev nD) (t : Fin cfg1.N) :
    (dat1 V c).flushed 2 t
      = ((cfg1.win 2).blk t).view.read (Elt Ideal) (biasReluRow (V c main_v46) (V c main_v47)) := by
  show (cfg1.win 2).cut (grid1.coords t) ((dat1 V c).after 2 t) = _
  rw [after1_2]
  unfold out1_2
  rw [View.canon_unit_zero offsets_zero]
  simp only [View.ld_unit_zero (S := S5000x256) offsets_zero, View.ld_unit_zero (S := S1x256) offsets_zero]
  rw [payload_eq]
  exact block_eq (V c main_v46) (V c main_v47) t

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v48).slice (win1_2.rect t)).set ↔ _
  rw [View.set_slice_whole, Rect.mem_set_unit]
  exact Iff.rfl

/-- Every index of the output array is in some point's block: row `r` in block `r / 5000`. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the grid: bias and clip of the whole input array. -/
theorem arr (c : Dev nD) :
    (dat1 V c).arrAt 2 cfg1.N = biasReluRow (V c main_v46) (V c main_v47) :=
  (dat1 V c).arrAt_eq_of_cover 2 _ (fun t _ => flushed_eq V c t) cover

end Cert.KernelIdeal.Region1

end
-- ==== Proof.Region2.lean ====
/-
  Grid 2: a matrix product computed on blocks of rows is the product of the whole array.

  Point `t` of the grid takes rows `5000 t … 5000 t + 4999` of the left array and the whole right array, and writes
  back rows `5000 t … 5000 t + 4999` of the output: at row `p` of the block and column `q` the sum over `k` of
  `x (5000 t + p, k) * w (k, q)` (both operands are rounded to a narrower format first, which changes no exact
  value, and the accumulator starts at zero).  That is entry `(5000 t + p, q)` of `mm x w`: row `r` of a product
  depends on row `r` of the left operand alone.  The ten blocks cover the fifty thousand rows (row `r` lies in block
  `r / 5000`), so the output array ends holding `mm x w`.
-/
import proofs.«178289_j64682207478387_1_alg».proof.Proof.Gen.KernelIdeal.Frame
import Idealize.ShloMosaic.Lib.Pipeline.Value
import proofs.«178289_j64682207478387_1_alg».proof.Proof.SpecForms

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's value from its two loaded blocks: their product. -/
theorem payload_eq (x0 : Vec Ideal S5000x256 .f32) (x1 : Vec Ideal S256x256 .f32) :
    k2_pay1 (F := Ideal) x0 x1 = mm x0 x1 :=
  matmul_rounded_eq_mm dot_S5000x256_S256x256_S5000x256_1_0_0_1_n_n_wf x0 x1 _ _ _

/-- The printed index maps over the grid: the left operand and the output move together down the rows, one block
    per point; the right operand stays put. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- The product of point `t`'s block of rows with the whole right array is point `t`'s block of the product. -/
theorem block_eq (A : FVec Ideal S50000x256 .f32) (B : FVec Ideal S256x256 .f32) (t : Fin cfg2.N) :
    (cfg2.win 2).cut (grid2.coords t)
        (mm (m := 5000) (k := 256) (n := 256) (((cfg2.win 0).blk t).view.read (Elt Ideal) A)
          (((cfg2.win 1).blk t).view.read (Elt Ideal) B))
      = ((cfg2.win 2).blk t).view.read (Elt Ideal) (mm A B) := by
  obtain ⟨e0, e1, e2, e3, e4, e5⟩ := index_maps t
  funext j
  obtain ⟨p, q, rfl⟩ : ∃ (p : Fin 5000) (q : Fin 256), j = ix2 p q := ⟨j 0, j 1, eq_ix2 j⟩
  show ∑ k' : Fin 256, A (((cfg2.win 0).blk t).view.emb (ix2 p k')) * B (((cfg2.win 1).blk t).view.emb (ix2 k' q))
      = ∑ k' : Fin 256, A (ix2 ((((cfg2.win 2).blk t).view.emb (ix2 p q)) 0 : Fin 50000) k')
          * B (ix2 k' ((((cfg2.win 2).blk t).view.emb (ix2 p q)) 1 : Fin 256))
  refine Finset.sum_congr rfl fun k' _ => ?_
  have h0 : ((cfg2.win 0).blk t).view.emb (ix2 p k')
      = ix2 ((((cfg2.win 2).blk t).view.emb (ix2 p q)) 0 : Fin 50000) k' := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * k'.val = k'.val; omega
  have h1 : ((cfg2.win 1).blk t).view.emb (ix2 k' q)
      = ix2 k' ((((cfg2.win 2).blk t).view.emb (ix2 p q)) 1 : Fin 256) := by
    funext a; apply Fin.ext
    match a with
    | ⟨0, _⟩ => show win2_1.index t (0 : Fin 2) * 256 + 1 * k'.val = k'.val; omega
    | ⟨1, _⟩ => show win2_1.index t (1 : Fin 2) * 256 + 1 * q.val = win2_2.index t (1 : Fin 2) * 256 + 1 * q.val; omega
  rw [h0, h1]
  rfl

variable (V : (c : Dev nD) → (b : Ref sig .tc) → Buf (Elt Ideal) ((c : Thread nD τ).loc b))

/-- What point `t` writes back is its block of the product of the two arrays as the grid finds them. -/
theorem flushed_eq (c : Dev nD) (t : Fin cfg2.N) :
    (dat2 V c).flushed 2 t
      = ((cfg2.win 2).blk t).view.read (Elt Ideal) (mm (V c main_v48) (V c main_arg5)) := by
  show (cfg2.win 2).cut (grid2.coords t) ((dat2 V c).after 2 t) = _
  rw [after2_2]
  unfold out2_2
  rw [View.canon_unit_zero offsets_zero]
  simp only [View.ld_unit_zero (S := S5000x256) offsets_zero, View.ld_unit_zero (S := S256x256) offsets_zero]
  rw [payload_eq]
  exact block_eq (V c main_v48) (V c main_arg5) t

/-- An index of the output array is in point `t`'s block iff each coordinate is in the block's range on its axis. -/
theorem mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v49).slice (win2_2.rect t)).set ↔ _
  rw [View.set_slice_whole, Rect.mem_set_unit]
  exact Iff.rfl

/-- Every index of the output array is in some point's block: row `r` in block `r / 5000`. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The output array after the grid: the product of the two whole arrays. -/
theorem arr (c : Dev nD) :
    (dat2 V c).arrAt 2 cfg2.N = mm (V c main_v48) (V c main_arg5) :=
  (dat2 V c).arrAt_eq_of_cover 2 _ (fun t _ => flushed_eq V c t) cover

end Cert.KernelIdeal.Region2

end
-- ==== Proof.Region3.lean ====
/-
  Grid 3: bias and clip, block by block, is bias and clip of the whole array.

  Point `t` of the grid takes rows `5000 t … 5000 t + 4999` of the input array, the whole one-row bias matrix, and
  writes back rows `5000 t … 5000 t + 4999` of the output: at row `p` of the block and column `q` the larger of
  `x (5000 t + p, q) + y (0, q)` and zero.  That is entry `(5000 t + p, q)` of `biasReluRow x y`, so every point
  writes back its block of that one array; the ten blocks cover the fifty thousand rows (row `r` lies in block
  `r / 5000`), and the output array ends holding it.
-/
import proofs.«178289_j64682207478387_1_alg».proof.Proof.Gen.KernelIdeal.Frame
import Idealize.ShloMosaic.Lib.Pipeline.Value
import proofs.«178289_j64682207478387_1_alg».proof.Proof.SpecForms

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's value from its two loaded blocks: the bias row added to every row, clipped at zero. -/
theorem payload_eq (x0 : Vec Ideal S5000x256 .f32) (x1 : Vec Ideal S1x256 .f32) :
    k3_pay1 (F := Ideal) x0 x1 = biasReluRow x0 x1 :=
  biasRelu_kernel x0 x1 _ _ _

/-- The printed index maps over the grid: the input and the output move together down the rows, one block per
    point; the bias row stays put. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of rows is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- Bias and clip of point `t`'s input block and the bias row is point `t`'s block of bias and clip of the arrays. -/
theorem block_eq (A : FVec Ideal S50000x256 .f32) (y : FVec Ideal S1x256 .f32) (t : Fin cfg3.N) :
    (cfg3.win 2).cut (grid3.coords t)
        (biasReluRow (m := 5000) (n := 256) (((cfg3.win 0).blk t).view.read (Elt Ideal) A)
          (((cfg3.win 1).blk t).view.read (Elt Ideal) y))
      = ((cfg3.win 2).blk t).view.read (Elt Ideal) (biasReluRow A y) := by
  obtain ⟨e0, e1, e2, e3, e4, e5⟩ := index_maps t
  funext j
  obtain ⟨p, q, rfl⟩ : ∃ (p : Fin 5000) (q : Fin 256), j = ix2 p q := ⟨j 0, j 1, eq_ix2 j⟩
  show max (A (((cfg3.win 0).blk t).view.emb (ix2 p q))
        + y (((cfg3.win 1).blk t).view.emb (ix2 (0 : Fin 1) q))) (Ideal.ofBits .f32 0x00000000#32)
      = max (A (((cfg3.win 2).blk t).view.emb (ix2 p q))
        + y (ix2 (0 : Fin 1) ((((cfg3.win 2).blk t).view.emb (ix2 p q)) 1 : Fin 256))) (Ideal.ofBits .f32 0x00000000#32)
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 256 + 1 * q.val = win3_2.index t (1 : Fin 2) * 256 + 1 * q.val; omega
  have h1 : ((cfg3.win 1).blk t).view.emb (ix2 (0 : Fin 1) q)
      = ix2 (0 : Fin 1) ((((cfg3.win 2).blk t).view.emb (ix2 p q)) 1 : Fin 256) := by
    funext a; apply Fin.ext
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega
  rw [h0, h1]
  rfl

variable (V : (c : Dev nD) → (b : Ref sig .tc) → Buf (Elt Ideal) ((c : Thread nD τ).loc b))

/-- What point `t` writes back is its block of `biasReluRow` of the two arrays as the grid finds them. -/
theorem flushed_eq (c : Dev nD) (t : Fin cfg3.N) :
    (dat3 V c).flushed 2 t
      = ((cfg3.win 2).blk t).view.read (Elt Ideal) (biasReluRow (V c main_v66) (V c main_v67)) := by
  show (cfg3.win 2).cut (grid3.coords t) ((dat3 V c).after 2 t) = _
  rw [after3_2]
  unfold out3_2
  rw [View.canon_unit_zero offsets_zero]
  simp only [View.ld_unit_zero (S := S5000x256) offsets_zero, View.ld_unit_zero (S := S1x256) offsets_zero]
  rw [payload_eq]
  exact block_eq (V c main_v66) (V c main_v67) t

/-- An index of the output array is in point `t`'s block iff each coordinate is in the block's range on its axis. -/
theorem mem_blk (t : Fin cfg3.N) (i : S50000x256.Idx) :
    i ∈ ((cfg3.win 2).blk t).view.set ↔ ∀ a : Fin 2, win3_2.index t a * S5000x256.size a ≤ (i a).val
      ∧ (i a).val < win3_2.index t a * S5000x256.size a + S5000x256.size a := by
  show i ∈ ((View.whole main_v68).slice (win3_2.rect t)).set ↔ _
  rw [View.set_slice_whole, Rect.mem_set_unit]
  exact Iff.rfl

/-- Every index of the output array is in some point's block: row `r` in block `r / 5000`. -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The output array after the grid: bias and clip of the whole input array. -/
theorem arr (c : Dev nD) :
    (dat3 V c).arrAt 2 cfg3.N = biasReluRow (V c main_v66) (V c main_v67) :=
  (dat3 V c).arrAt_eq_of_cover 2 _ (fun t _ => flushed_eq V c t) cover

end Cert.KernelIdeal.Region3

end
-- ==== Proof.Region4.lean ====
/-
  Grid 4: the last matrix product plus bias, computed on blocks of rows, is that of the whole array.

  Point `t` of the grid takes rows `5000 t … 5000 t + 4999` of the left array, the whole right array and the whole
  one-row bias matrix, and writes back rows `5000 t … 5000 t + 4999` of the output: at row `p` of the block and column
  `q` the sum over `k` of `x (5000 t + p, k) * w (k, q)`, plus `y (0, q)`.  That is entry `(5000 t + p, q)` of
  `mmBiasRow x w y`.  The ten blocks cover the fifty thousand rows, so the output array ends holding it.
-/
import proofs.«178289_j64682207478387_1_alg».proof.Proof.Gen.KernelIdeal.Frame
import Idealize.ShloMosaic.Lib.Pipeline.Value
import proofs.«178289_j64682207478387_1_alg».proof.Proof.SpecForms

noncomputable section

namespace Cert.KernelIdeal.Region4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's value from its three loaded blocks: the product plus the bias row. -/
theorem payload_eq (x0 : Vec Ideal S5000x256 .f32) (x1 : Vec Ideal S256x256 .f32) (x2 : Vec Ideal S1x256 .f32) :
    k4_pay1 (F := Ideal) x0 x1 x2 = mmBiasRow x0 x1 x2 :=
  mmBias_kernel dot_S5000x256_S256x256_S5000x256_1_0_0_1_n_n_wf x0 x1 x2 _ _ _ _ _

/-- The printed index maps over the grid: the left operand and the output move together down the rows, one block
    per point; the right operand and the bias row stay put. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every block of rows is some point's. -/
theorem index_onto : ∀ q0 : Fin 10, ∃ t : Fin cfg4.N, win4_3.index t = ![q0.val, 0] :=
  (by decide +kernel : ∀ q0 : Fin 10, ∃ t : Fin grid4.N, win4_3.index t = ![q0.val, 0])

/-- The product plus bias of point `t`'s block of rows is point `t`'s block of the product plus bias. -/
theorem block_eq (A : FVec Ideal S50000x256 .f32) (B : FVec Ideal S256x256 .f32) (y : FVec Ideal S1x256 .f32)
    (t : Fin cfg4.N) :
    (cfg4.win 3).cut (grid4.coords t)
        (mmBiasRow (m := 5000) (k := 256) (n := 256) (((cfg4.win 0).blk t).view.read (Elt Ideal) A)
          (((cfg4.win 1).blk t).view.read (Elt Ideal) B) (((cfg4.win 2).blk t).view.read (Elt Ideal) y))
      = ((cfg4.win 3).blk t).view.read (Elt Ideal) (mmBiasRow A B y) := by
  obtain ⟨e0, e1, e2, e3, e4, e5, e6, e7⟩ := index_maps t
  funext j
  obtain ⟨p, q, rfl⟩ : ∃ (p : Fin 5000) (q : Fin 256), j = ix2 p q := ⟨j 0, j 1, eq_ix2 j⟩
  show (∑ k' : Fin 256, A (((cfg4.win 0).blk t).view.emb (ix2 p k')) * B (((cfg4.win 1).blk t).view.emb (ix2 k' q)))
        + y (((cfg4.win 2).blk t).view.emb (ix2 (0 : Fin 1) q))
      = (∑ k' : Fin 256, A (ix2 ((((cfg4.win 3).blk t).view.emb (ix2 p q)) 0 : Fin 50000) k')
          * B (ix2 k' ((((cfg4.win 3).blk t).view.emb (ix2 p q)) 1 : Fin 256)))
        + y (ix2 (0 : Fin 1) ((((cfg4.win 3).blk t).view.emb (ix2 p q)) 1 : Fin 256))
  have h2 : ((cfg4.win 2).blk t).view.emb (ix2 (0 : Fin 1) q)
      = ix2 (0 : Fin 1) ((((cfg4.win 3).blk t).view.emb (ix2 p q)) 1 : Fin 256) := by
    funext a; apply Fin.ext
    match a with
    | ⟨0, _⟩ => show win4_2.index t (0 : Fin 2) * 1 + 1 * 0 = 0; omega
    | ⟨1, _⟩ => show win4_2.index t (1 : Fin 2) * 256 + 1 * q.val = win4_3.index t (1 : Fin 2) * 256 + 1 * q.val; omega
  rw [h2]
  refine congrArg (· + _) (Finset.sum_congr rfl fun k' _ => ?_)
  have h0 : ((cfg4.win 0).blk t).view.emb (ix2 p k')
      = ix2 ((((cfg4.win 3).blk t).view.emb (ix2 p q)) 0 : Fin 50000) k' := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 256 + 1 * k'.val = k'.val; omega
  have h1 : ((cfg4.win 1).blk t).view.emb (ix2 k' q)
      = ix2 k' ((((cfg4.win 3).blk t).view.emb (ix2 p q)) 1 : Fin 256) := by
    funext a; apply Fin.ext
    match a with
    | ⟨0, _⟩ => show win4_1.index t (0 : Fin 2) * 256 + 1 * k'.val = k'.val; omega
    | ⟨1, _⟩ => show win4_1.index t (1 : Fin 2) * 256 + 1 * q.val = win4_3.index t (1 : Fin 2) * 256 + 1 * q.val; omega
  rw [h0, h1]
  rfl

variable (V : (c : Dev nD) → (b : Ref sig .tc) → Buf (Elt Ideal) ((c : Thread nD τ).loc b))

/-- What point `t` writes back is its block of the product plus bias of the three arrays as the grid finds them. -/
theorem flushed_eq (c : Dev nD) (t : Fin cfg4.N) :
    (dat4 V c).flushed 3 t
      = ((cfg4.win 3).blk t).view.read (Elt Ideal) (mmBiasRow (V c main_v68) (V c main_arg7) (V c main_v69)) := by
  show (cfg4.win 3).cut (grid4.coords t) ((dat4 V c).after 3 t) = _
  rw [after4_3]
  unfold out4_3
  rw [View.canon_unit_zero offsets_zero]
  simp only [View.ld_unit_zero (S := S5000x256) offsets_zero, View.ld_unit_zero (S := S256x256) offsets_zero,
    View.ld_unit_zero (S := S1x256) offsets_zero]
  rw [payload_eq]
  exact block_eq (V c main_v68) (V c main_arg7) (V c main_v69) t

/-- An index of the output array is in point `t`'s block iff each coordinate is in the block's range on its axis. -/
theorem mem_blk (t : Fin cfg4.N) (i : S50000x256.Idx) :
    i ∈ ((cfg4.win 3).blk t).view.set ↔ ∀ a : Fin 2, win4_3.index t a * S5000x256.size a ≤ (i a).val
      ∧ (i a).val < win4_3.index t a * S5000x256.size a + S5000x256.size a := by
  show i ∈ ((View.whole main_v70).slice (win4_3.rect t)).set ↔ _
  rw [View.set_slice_whole, Rect.mem_set_unit]
  exact Iff.rfl

/-- Every index of the output array is in some point's block: row `r` in block `r / 5000`. -/
theorem cover (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  obtain ⟨t, ht⟩ := index_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 256 ≤ (i 1).val ∧ (i 1).val < win4_3.index t (1 : Fin 2) * 256 + 256; omega

/-- The output array after the grid: the product plus bias of the whole arrays. -/
theorem arr (c : Dev nD) :
    (dat4 V c).arrAt 3 cfg4.N = mmBiasRow (V c main_v68) (V c main_arg7) (V c main_v69) :=
  (dat4 V c).arrAt_eq_of_cover 3 _ (fun t _ => flushed_eq V c t) cover

end Cert.KernelIdeal.Region4

end
-- ==== Proof.Fold.lean ====
/-
  The idealized kernel's result array, read back through the nine segment boundaries to the arguments.

  Three rules carry the contents of a buffer from one boundary to the next.  A grid replaces its output array by what
  its points wrote back — the product, the bias-and-clip, or the product plus bias of the arrays it was entered with —
  and leaves every other buffer as it was.  A stretch of host operations sets each buffer it writes to its
  operation's function of the buffers it reads, and leaves every buffer it does not write as it was.  So the two
  rows of the edge list, the edge weights and the nodes' own weights, computed once before the first grid, are still
  there when the second mixing step reads them, and each weight matrix and bias vector is still the launch contents
  when its grid or stretch reads it.  Composing the rules from the last boundary down to the launch gives the network
  of the nine arguments.
-/
import proofs.«178289_j64682207478387_1_alg».proof.Proof.Gen.KernelIdeal.Frame
import proofs.«178289_j64682207478387_1_alg».proof.Proof.HostChain
import proofs.«178289_j64682207478387_1_alg».proof.Proof.Stretches
import proofs.«178289_j64682207478387_1_alg».proof.Proof.Region0
import proofs.«178289_j64682207478387_1_alg».proof.Proof.Region1
import proofs.«178289_j64682207478387_1_alg».proof.Proof.Region2
import proofs.«178289_j64682207478387_1_alg».proof.Proof.Region3
import proofs.«178289_j64682207478387_1_alg».proof.Proof.Region4

noncomputable section

namespace Cert.KernelIdeal.Fold

open Cert.KernelIdeal Cert.KernelIdeal.Gen Cert.KernelIdeal.Chain Cert.Gcn
open Idealize.ShloMosaic Idealize.ShloMosaic.TcCoe Idealize.SL.Sem

/-- A buffer none of a stretch's operations writes holds after the stretch what it held before. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## After the first stretch: the edge quantities and the concatenated features; the later arguments untouched -/

theorem src_at1 : W1 m ρ c (Proc.devRef .tc main_v1) = srcOf (m ((c : Thread nD τ).loc main_arg2)) := Stretch.src_eq (W0 m ρ c)
theorem dst_at1 : W1 m ρ c (Proc.devRef .tc main_v3) = dstOf (m ((c : Thread nD τ).loc main_arg2)) := Stretch.dst_eq (W0 m ρ c)
theorem cat_at1 : W1 m ρ c (Proc.devRef .tc main_v4) = catOf (m ((c : Thread nD τ).loc main_arg0)) (m ((c : Thread nD τ).loc main_arg1)) := Stretch.cat_eq (W0 m ρ c)
theorem norm_at1 : W1 m ρ c (Proc.devRef .tc main_v27) = normOf (m ((c : Thread nD τ).loc main_arg2)) := Stretch.norm_eq (W0 m ρ c)
theorem self_at1 : W1 m ρ c (Proc.devRef .tc main_v28) = selfOf (m ((c : Thread nD τ).loc main_arg2)) := Stretch.self_eq (W0 m ρ c)
theorem arg3_at1 : W1 m ρ c (Proc.devRef .tc main_arg3) = (m ((c : Thread nD τ).loc main_arg3)) :=
  (by host_keeps hostOps0 : W1 m ρ c (Proc.devRef .tc main_arg3) = W0 m ρ c (Proc.devRef .tc main_arg3)).trans rfl
theorem arg4_at1 : W1 m ρ c (Proc.devRef .tc main_arg4) = (m ((c : Thread nD τ).loc main_arg4)) :=
  (by host_keeps hostOps0 : W1 m ρ c (Proc.devRef .tc main_arg4) = W0 m ρ c (Proc.devRef .tc main_arg4)).trans rfl
theorem arg5_at1 : W1 m ρ c (Proc.devRef .tc main_arg5) = (m ((c : Thread nD τ).loc main_arg5)) :=
  (by host_keeps hostOps0 : W1 m ρ c (Proc.devRef .tc main_arg5) = W0 m ρ c (Proc.devRef .tc main_arg5)).trans rfl
theorem arg6_at1 : W1 m ρ c (Proc.devRef .tc main_arg6) = (m ((c : Thread nD τ).loc main_arg6)) :=
  (by host_keeps hostOps0 : W1 m ρ c (Proc.devRef .tc main_arg6) = W0 m ρ c (Proc.devRef .tc main_arg6)).trans rfl
theorem arg7_at1 : W1 m ρ c (Proc.devRef .tc main_arg7) = (m ((c : Thread nD τ).loc main_arg7)) :=
  (by host_keeps hostOps0 : W1 m ρ c (Proc.devRef .tc main_arg7) = W0 m ρ c (Proc.devRef .tc main_arg7)).trans rfl
theorem arg8_at1 : W1 m ρ c (Proc.devRef .tc main_arg8) = (m ((c : Thread nD τ).loc main_arg8)) :=
  (by host_keeps hostOps0 : W1 m ρ c (Proc.devRef .tc main_arg8) = W0 m ρ c (Proc.devRef .tc main_arg8)).trans rfl

/-! ## The carried buffers, boundary by boundary -/

theorem src_at2 : W2 m ρ c (Proc.devRef .tc main_v1) = srcOf (m ((c : Thread nD τ).loc main_arg2)) :=
  (W2_of_ne m ρ c main_v1 (by decide)).trans (src_at1 m ρ c)
theorem src_at3 : W3 m ρ c (Proc.devRef .tc main_v1) = srcOf (m ((c : Thread nD τ).loc main_arg2)) :=
  ((by host_keeps hostOps1 : W3 m ρ c (Proc.devRef .tc main_v1) = W2 m ρ c (Proc.devRef .tc main_v1))).trans (src_at2 m ρ c)
theorem src_at4 : W4 m ρ c (Proc.devRef .tc main_v1) = srcOf (m ((c : Thread nD τ).loc main_arg2)) :=
  (W4_of_ne m ρ c main_v1 (by decide)).trans (src_at3 m ρ c)
theorem src_at5 : W5 m ρ c (Proc.devRef .tc main_v1) = srcOf (m ((c : Thread nD τ).loc main_arg2)) :=
  (W5_of_ne m ρ c main_v1 (by decide)).trans (src_at4 m ρ c)

theorem dst_at2 : W2 m ρ c (Proc.devRef .tc main_v3) = dstOf (m ((c : Thread nD τ).loc main_arg2)) :=
  (W2_of_ne m ρ c main_v3 (by decide)).trans (dst_at1 m ρ c)
theorem dst_at3 : W3 m ρ c (Proc.devRef .tc main_v3) = dstOf (m ((c : Thread nD τ).loc main_arg2)) :=
  ((by host_keeps hostOps1 : W3 m ρ c (Proc.devRef .tc main_v3) = W2 m ρ c (Proc.devRef .tc main_v3))).trans (dst_at2 m ρ c)
theorem dst_at4 : W4 m ρ c (Proc.devRef .tc main_v3) = dstOf (m ((c : Thread nD τ).loc main_arg2)) :=
  (W4_of_ne m ρ c main_v3 (by decide)).trans (dst_at3 m ρ c)
theorem dst_at5 : W5 m ρ c (Proc.devRef .tc main_v3) = dstOf (m ((c : Thread nD τ).loc main_arg2)) :=
  (W5_of_ne m ρ c main_v3 (by decide)).trans (dst_at4 m ρ c)

theorem norm_at2 : W2 m ρ c (Proc.devRef .tc main_v27) = normOf (m ((c : Thread nD τ).loc main_arg2)) :=
  (W2_of_ne m ρ c main_v27 (by decide)).trans (norm_at1 m ρ c)
theorem norm_at3 : W3 m ρ c (Proc.devRef .tc main_v27) = normOf (m ((c : Thread nD τ).loc main_arg2)) :=
  ((by host_keeps hostOps1 : W3 m ρ c (Proc.devRef .tc main_v27) = W2 m ρ c (Proc.devRef .tc main_v27))).trans (norm_at2 m ρ c)
theorem norm_at4 : W4 m ρ c (Proc.devRef .tc main_v27) = normOf (m ((c : Thread nD τ).loc main_arg2)) :=
  (W4_of_ne m ρ c main_v27 (by decide)).trans (norm_at3 m ρ c)
theorem norm_at5 : W5 m ρ c (Proc.devRef .tc main_v27) = normOf (m ((c : Thread nD τ).loc main_arg2)) :=
  (W5_of_ne m ρ c main_v27 (by decide)).trans (norm_at4 m ρ c)

theorem self_at2 : W2 m ρ c (Proc.devRef .tc main_v28) = selfOf (m ((c : Thread nD τ).loc main_arg2)) :=
  (W2_of_ne m ρ c main_v28 (by decide)).trans (self_at1 m ρ c)
theorem self_at3 : W3 m ρ c (Proc.devRef .tc main_v28) = selfOf (m ((c : Thread nD τ).loc main_arg2)) :=
  ((by host_keeps hostOps1 : W3 m ρ c (Proc.devRef .tc main_v28) = W2 m ρ c (Proc.devRef .tc main_v28))).trans (self_at2 m ρ c)
theorem self_at4 : W4 m ρ c (Proc.devRef .tc main_v28) = selfOf (m ((c : Thread nD τ).loc main_arg2)) :=
  (W4_of_ne m ρ c main_v28 (by decide)).trans (self_at3 m ρ c)
theorem self_at5 : W5 m ρ c (Proc.devRef .tc main_v28) = selfOf (m ((c : Thread nD τ).loc main_arg2)) :=
  (W5_of_ne m ρ c main_v28 (by decide)).trans (self_at4 m ρ c)

theorem arg4_at2 : W2 m ρ c (Proc.devRef .tc main_arg4) = (m ((c : Thread nD τ).loc main_arg4)) :=
  (W2_of_ne m ρ c main_arg4 (by decide)).trans (arg4_at1 m ρ c)

theorem arg5_at2 : W2 m ρ c (Proc.devRef .tc main_arg5) = (m ((c : Thread nD τ).loc main_arg5)) :=
  (W2_of_ne m ρ c main_arg5 (by decide)).trans (arg5_at1 m ρ c)
theorem arg5_at3 : W3 m ρ c (Proc.devRef .tc main_arg5) = (m ((c : Thread nD τ).loc main_arg5)) :=
  ((by host_keeps hostOps1 : W3 m ρ c (Proc.devRef .tc main_arg5) = W2 m ρ c (Proc.devRef .tc main_arg5))).trans (arg5_at2 m ρ c)
theorem arg5_at4 : W4 m ρ c (Proc.devRef .tc main_arg5) = (m ((c : Thread nD τ).loc main_arg5)) :=
  (W4_of_ne m ρ c main_arg5 (by decide)).trans (arg5_at3 m ρ c)

theorem arg6_at2 : W2 m ρ c (Proc.devRef .tc main_arg6) = (m ((c : Thread nD τ).loc main_arg6)) :=
  (W2_of_ne m ρ c main_arg6 (by decide)).trans (arg6_at1 m ρ c)
theorem arg6_at3 : W3 m ρ c (Proc.devRef .tc main_arg6) = (m ((c : Thread nD τ).loc main_arg6)) :=
  ((by host_keeps hostOps1 : W3 m ρ c (Proc.devRef .tc main_arg6) = W2 m ρ c (Proc.devRef .tc main_arg6))).trans (arg6_at2 m ρ c)
theorem arg6_at4 : W4 m ρ c (Proc.devRef .tc main_arg6) = (m ((c : Thread nD τ).loc main_arg6)) :=
  (W4_of_ne m ρ c main_arg6 (by decide)).trans (arg6_at3 m ρ c)
theorem arg6_at5 : W5 m ρ c (Proc.devRef .tc main_arg6) = (m ((c : Thread nD τ).loc main_arg6)) :=
  (W5_of_ne m ρ c main_arg6 (by decide)).trans (arg6_at4 m ρ c)

theorem arg7_at2 : W2 m ρ c (Proc.devRef .tc main_arg7) = (m ((c : Thread nD τ).loc main_arg7)) :=
  (W2_of_ne m ρ c main_arg7 (by decide)).trans (arg7_at1 m ρ c)
theorem arg7_at3 : W3 m ρ c (Proc.devRef .tc main_arg7) = (m ((c : Thread nD τ).loc main_arg7)) :=
  ((by host_keeps hostOps1 : W3 m ρ c (Proc.devRef .tc main_arg7) = W2 m ρ c (Proc.devRef .tc main_arg7))).trans (arg7_at2 m ρ c)
theorem arg7_at4 : W4 m ρ c (Proc.devRef .tc main_arg7) = (m ((c : Thread nD τ).loc main_arg7)) :=
  (W4_of_ne m ρ c main_arg7 (by decide)).trans (arg7_at3 m ρ c)
theorem arg7_at5 : W5 m ρ c (Proc.devRef .tc main_arg7) = (m ((c : Thread nD τ).loc main_arg7)) :=
  (W5_of_ne m ρ c main_arg7 (by decide)).trans (arg7_at4 m ρ c)
theorem arg7_at6 : W6 m ρ c (Proc.devRef .tc main_arg7) = (m ((c : Thread nD τ).loc main_arg7)) :=
  ((by host_keeps hostOps3 : W6 m ρ c (Proc.devRef .tc main_arg7) = W5 m ρ c (Proc.devRef .tc main_arg7))).trans (arg7_at5 m ρ c)
theorem arg7_at7 : W7 m ρ c (Proc.devRef .tc main_arg7) = (m ((c : Thread nD τ).loc main_arg7)) :=
  (W7_of_ne m ρ c main_arg7 (by decide)).trans (arg7_at6 m ρ c)
theorem arg7_at8 : W8 m ρ c (Proc.devRef .tc main_arg7) = (m ((c : Thread nD τ).loc main_arg7)) :=
  ((by host_keeps hostOps4 : W8 m ρ c (Proc.devRef .tc main_arg7) = W7 m ρ c (Proc.devRef .tc main_arg7))).trans (arg7_at7 m ρ c)

theorem arg8_at2 : W2 m ρ c (Proc.devRef .tc main_arg8) = (m ((c : Thread nD τ).loc main_arg8)) :=
  (W2_of_ne m ρ c main_arg8 (by decide)).trans (arg8_at1 m ρ c)
theorem arg8_at3 : W3 m ρ c (Proc.devRef .tc main_arg8) = (m ((c : Thread nD τ).loc main_arg8)) :=
  ((by host_keeps hostOps1 : W3 m ρ c (Proc.devRef .tc main_arg8) = W2 m ρ c (Proc.devRef .tc main_arg8))).trans (arg8_at2 m ρ c)
theorem arg8_at4 : W4 m ρ c (Proc.devRef .tc main_arg8) = (m ((c : Thread nD τ).loc main_arg8)) :=
  (W4_of_ne m ρ c main_arg8 (by decide)).trans (arg8_at3 m ρ c)
theorem arg8_at5 : W5 m ρ c (Proc.devRef .tc main_arg8) = (m ((c : Thread nD τ).loc main_arg8)) :=
  (W5_of_ne m ρ c main_arg8 (by decide)).trans (arg8_at4 m ρ c)
theorem arg8_at6 : W6 m ρ c (Proc.devRef .tc main_arg8) = (m ((c : Thread nD τ).loc main_arg8)) :=
  ((by host_keeps hostOps3 : W6 m ρ c (Proc.devRef .tc main_arg8) = W5 m ρ c (Proc.devRef .tc main_arg8))).trans (arg8_at5 m ρ c)
theorem arg8_at7 : W7 m ρ c (Proc.devRef .tc main_arg8) = (m ((c : Thread nD τ).loc main_arg8)) :=
  (W7_of_ne m ρ c main_arg8 (by decide)).trans (arg8_at6 m ρ c)

/-! ## The first layer -/

/-- After the first grid: the product of the concatenated features with the first weight matrix. -/
theorem prod1_at2 : W2 m ρ c (Proc.devRef .tc main_v29) = mm (catOf (m ((c : Thread nD τ).loc main_arg0)) (m ((c : Thread nD τ).loc main_arg1))) (m ((c : Thread nD τ).loc main_arg3)) := by
  refine (W2_arr m ρ c 2).trans ((Region0.arr (V1 m ρ) c).trans ?_)
  show mm (W1 m ρ c (Proc.devRef .tc main_v4)) (W1 m ρ c (Proc.devRef .tc main_arg3)) = _
  rw [cat_at1, arg3_at1]

/-- After the second stretch: the first mixing step, and the first bias as a one-row matrix. -/
theorem mix1_at3 : W3 m ρ c (Proc.devRef .tc main_v46) = conv (mm (catOf (m ((c : Thread nD τ).loc main_arg0)) (m ((c : Thread nD τ).loc main_arg1))) (m ((c : Thread nD τ).loc main_arg3))) (srcOf (m ((c : Thread nD τ).loc main_arg2))) (dstOf (m ((c : Thread nD τ).loc main_arg2))) (normOf (m ((c : Thread nD τ).loc main_arg2))) (selfOf (m ((c : Thread nD τ).loc main_arg2))) := by
  refine (Stretch.conv1_eq (W2 m ρ c)).trans ?_
  rw [prod1_at2, src_at2, dst_at2, norm_at2, self_at2]

theorem row1_at3 : W3 m ρ c (Proc.devRef .tc main_v47) = rowOf (m ((c : Thread nD τ).loc main_arg4)) :=
  (Stretch.row1_eq (W2 m ρ c)).trans (congrArg rowOf (arg4_at2 m ρ c))

/-- After the second grid: the first layer's output. -/
theorem layer1_at4 : W4 m ρ c (Proc.devRef .tc main_v48) = layer1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ((Region1.arr (V3 m ρ) c).trans ?_)
  show biasReluRow (W3 m ρ c (Proc.devRef .tc main_v46)) (W3 m ρ c (Proc.devRef .tc main_v47)) = _
  rw [mix1_at3, row1_at3]
  rfl

/-! ## The second layer -/

/-- After the third grid: the product of the first layer's output with the second weight matrix. -/
theorem prod2_at5 : W5 m ρ c (Proc.devRef .tc main_v49) = mm (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W5_arr m ρ c 2).trans ((Region2.arr (V4 m ρ) c).trans ?_)
  show mm (W4 m ρ c (Proc.devRef .tc main_v48)) (W4 m ρ c (Proc.devRef .tc main_arg5)) = _
  rw [layer1_at4, arg5_at4]

/-- After the third stretch: the second mixing step, with the edge quantities computed before the first grid. -/
theorem mix2_at6 : W6 m ρ c (Proc.devRef .tc main_v66) = conv (mm (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (srcOf (m ((c : Thread nD τ).loc main_arg2))) (dstOf (m ((c : Thread nD τ).loc main_arg2))) (normOf (m ((c : Thread nD τ).loc main_arg2))) (selfOf (m ((c : Thread nD τ).loc main_arg2))) := by
  refine (Stretch.conv2_eq (W5 m ρ c)).trans ?_
  rw [prod2_at5, src_at5, dst_at5, norm_at5, self_at5]

theorem row2_at6 : W6 m ρ c (Proc.devRef .tc main_v67) = rowOf (m ((c : Thread nD τ).loc main_arg6)) :=
  (Stretch.row2_eq (W5 m ρ c)).trans (congrArg rowOf (arg6_at5 m ρ c))

/-- After the fourth grid: the second layer's output. -/
theorem layer2_at7 : W7 m ρ c (Proc.devRef .tc main_v68) = layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg2)) (m ((c : Thread nD τ).loc main_arg5)) (m ((c : Thread nD τ).loc main_arg6)) := by
  refine (W7_arr m ρ c 2).trans ((Region3.arr (V6 m ρ) c).trans ?_)
  show biasReluRow (W6 m ρ c (Proc.devRef .tc main_v66)) (W6 m ρ c (Proc.devRef .tc main_v67)) = _
  rw [mix2_at6, row2_at6]
  rfl

/-! ## The output layer -/

theorem row3_at8 : W8 m ρ c (Proc.devRef .tc main_v69) = rowOf (m ((c : Thread nD τ).loc main_arg8)) :=
  (Stretch.row3_eq (W7 m ρ c)).trans (congrArg rowOf (arg8_at7 m ρ c))

theorem layer2_at8 : W8 m ρ c (Proc.devRef .tc main_v68) = layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg2)) (m ((c : Thread nD τ).loc main_arg5)) (m ((c : Thread nD τ).loc main_arg6)) :=
  (by host_keeps hostOps4 : W8 m ρ c (Proc.devRef .tc main_v68) = W7 m ρ c (Proc.devRef .tc main_v68)).trans (layer2_at7 m ρ c)

/-- The result array at the last boundary is the network of the nine arguments as launched. -/
theorem result : W9 m ρ c (Proc.devRef .tc main_v70) = layers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((Region4.arr (V8 m ρ) c).trans ?_)
  show mmBiasRow (W8 m ρ c (Proc.devRef .tc main_v68)) (W8 m ρ c (Proc.devRef .tc main_arg7)) (W8 m ρ c (Proc.devRef .tc main_v69)) = _
  rw [layer2_at8, arg7_at8, row3_at8]
  rfl

end Cert.KernelIdeal.Fold

end
-- ==== Proof.RefStages.lean ====
/-
  The reference program's stages are the network's functions.

  The reference multiplies with the host's matrix product, which entry by entry is the plain sum `mm`; it computes
  the edge weights and the nodes' own weights from the degrees before EACH mixing step, by the same operations both
  times, so the second computation is the first; its mixing step is the operations of `conv`; it adds a bias laid
  down the rows and clips at a zero constant, which is `biasReluRow`; and its last stage is a product plus a bias
  row, `mmBiasRow`.  A bias vector as a one-row matrix is the same matrix whether made by a broadcast along axis 1
  (the reference) or by a reshape (the kernel's program).
-/
import proofs.«178289_j64682207478387_1_alg».proof.Proof.Gen.ReferenceIdeal.Read
import proofs.«178289_j64682207478387_1_alg».proof.Proof.HostChain
import proofs.«178289_j64682207478387_1_alg».proof.Proof.SpecForms

noncomputable section

namespace Cert.ReferenceIdeal.Stages

open Cert.ReferenceIdeal Cert.ReferenceIdeal.Gen Cert.ReferenceIdeal.Read Cert.Gcn
open Idealize.ShloMosaic
open Cert.KernelIdeal.Chain (srcOf dstOf wrapIdx disOf normOf selfOf conv catOf rowOf layer1 layer2 layers)

variable (x0 : FVec Ideal S50000x128 .f32) (x1 : FVec Ideal S50000x32 .f32) (x2 : IVec S2x800000 32)
  (x3 : FVec Ideal S160x256 .f32) (x4 : FVec Ideal S256 .f32) (x5 : FVec Ideal S256x256 .f32)
  (x6 : FVec Ideal S256 .f32) (x7 : FVec Ideal S256x256 .f32) (x8 : FVec Ideal S256 .f32)

/-! ## The edge quantities (the same operations in both programs) -/

theorem src_eq : val_main_v1 (F := Ideal) x2 = srcOf x2 := rfl
theorem dst_eq : val_main_v3 (F := Ideal) x2 = dstOf x2 := rfl
theorem dis_eq : val_main_v13 (F := Ideal) x2 = disOf x2 := rfl
theorem norm_eq : val_main_v28 (F := Ideal) x2 = normOf x2 := rfl
theorem self_eq : val_main_v42 (F := Ideal) x2 = selfOf x2 := rfl
/-- Before the second mixing step the reference computes the same quantities again. -/
theorem dis_again : val_main_v59 (F := Ideal) x2 = val_main_v13 (F := Ideal) x2 := rfl
theorem norm_again : val_main_v74 (F := Ideal) x2 = val_main_v28 (F := Ideal) x2 := rfl
theorem self_again : val_main_v88 (F := Ideal) x2 = val_main_v42 (F := Ideal) x2 := rfl

/-! ## A bias vector as a one-row matrix -/

theorem row_eq (b : FVec Ideal S256 .f32) :
    broadcastInDim S1x256 ![1] bcast_S256_S1x256_1 b = rowOf b :=
  (Cert.LibRows.shapeCast_row_eq_broadcastInDim (n := 256) b _ bcast_S256_S1x256_1).symm

/-! ## The first layer -/

theorem cat_eq : val_main_v4 (F := Ideal) x0 x1 = catOf x0 x1 := rfl

theorem prod1_eq : val_main_v5 (F := Ideal) x0 x1 x3 = mm (catOf x0 x1) x3 :=
  dotGeneral_eq_mm dot_S50000x160_S160x256_S50000x256_1_0_0_1_n_n_wf (val_main_v4 (F := Ideal) x0 x1) x3

theorem mix1_eq : val_main_v46 (F := Ideal) x0 x1 x2 x3
    = conv (val_main_v5 (F := Ideal) x0 x1 x3) (val_main_v1 (F := Ideal) x2) (val_main_v3 (F := Ideal) x2)
        (val_main_v28 (F := Ideal) x2) (val_main_v42 (F := Ideal) x2) := rfl

theorem clip1_eq : val_main_v50 (F := Ideal) x0 x1 x2 x3 x4
    = biasReluRow (val_main_v46 (F := Ideal) x0 x1 x2 x3) (val_main_v47 (F := Ideal) x4) :=
  biasRelu_host (val_main_v46 (F := Ideal) x0 x1 x2 x3) (val_main_v47 (F := Ideal) x4) bcast_S1x256_S50000x256_0_1 bcast_S_S50000x256

theorem layer1_eq : val_main_v50 (F := Ideal) x0 x1 x2 x3 x4 = layer1 x0 x1 x2 x3 x4 := by
  rw [clip1_eq, mix1_eq, prod1_eq, src_eq, dst_eq, norm_eq, self_eq]
  exact congrArg (biasReluRow _) (row_eq x4)

/-! ## The second layer -/

theorem prod2_eq : val_main_v51 (F := Ideal) x0 x1 x2 x3 x4 x5 = mm (val_main_v50 (F := Ideal) x0 x1 x2 x3 x4) x5 :=
  dotGeneral_eq_mm dot_S50000x256_S256x256_S50000x256_1_0_0_1_n_n_wf (val_main_v50 (F := Ideal) x0 x1 x2 x3 x4) x5

theorem mix2_eq : val_main_v92 (F := Ideal) x0 x1 x2 x3 x4 x5
    = conv (val_main_v51 (F := Ideal) x0 x1 x2 x3 x4 x5) (val_main_v1 (F := Ideal) x2) (val_main_v3 (F := Ideal) x2)
        (val_main_v74 (F := Ideal) x2) (val_main_v88 (F := Ideal) x2) := rfl

theorem clip2_eq : val_main_v96 (F := Ideal) x0 x1 x2 x3 x4 x5 x6
    = biasReluRow (val_main_v92 (F := Ideal) x0 x1 x2 x3 x4 x5) (val_main_v93 (F := Ideal) x6) :=
  biasRelu_host (val_main_v92 (F := Ideal) x0 x1 x2 x3 x4 x5) (val_main_v93 (F := Ideal) x6) bcast_S1x256_S50000x256_0_1 bcast_S_S50000x256

theorem layer2_eq : val_main_v96 (F := Ideal) x0 x1 x2 x3 x4 x5 x6 = layer2 (layer1 x0 x1 x2 x3 x4) x2 x5 x6 := by
  rw [clip2_eq, mix2_eq, prod2_eq, layer1_eq, norm_again, self_again, src_eq, dst_eq, norm_eq, self_eq]
  exact congrArg (biasReluRow _) (row_eq x6)

/-! ## The output layer -/

theorem out_eq : val_main_v100 (F := Ideal) x0 x1 x2 x3 x4 x5 x6 x7 x8
    = mmBiasRow (val_main_v96 (F := Ideal) x0 x1 x2 x3 x4 x5 x6) x7 (val_main_v98 (F := Ideal) x8) :=
  mmBias_host dot_S50000x256_S256x256_S50000x256_1_0_0_1_n_n_wf (val_main_v96 (F := Ideal) x0 x1 x2 x3 x4 x5 x6) x7
    (val_main_v98 (F := Ideal) x8) bcast_S1x256_S50000x256_0_1

/-- The reference's result is the network of its nine arguments. -/
theorem result_eq : val_main_v100 (F := Ideal) x0 x1 x2 x3 x4 x5 x6 x7 x8 = layers x0 x1 x2 x3 x4 x5 x6 x7 x8 := by
  rw [out_eq, layer2_eq]
  exact congrArg (mmBiasRow _ x7) (row_eq x8)

end Cert.ReferenceIdeal.Stages

end
-- ==== Proof.lean ====
/-
  A two-layer graph convolution with an output layer, computed by five grids of row blocks among host operations,
  against the same network computed by host operations alone: equal results over the extended reals.

  The network: concatenate the two node-feature arrays; multiply by a weight matrix; mix the rows along the edges
  (gather the row at each edge's start, scale by the edge's weight, add into the row at the edge's end, and add the
  node's own row scaled by its own weight, the weights coming from the nodes' degrees); add a bias to every row and
  clip at zero; do the same once more with the second weight matrix and bias; multiply by the last weight matrix and
  add the last bias.

  The two programs differ in three ways, none of which changes an exact value.  The kernel's program computes each
  matrix product on ten blocks of five thousand rows, rounding the operands to a narrower format first; a row of a
  product depends on that row of the left operand alone, and rounding is the identity on exact values, so the blocks
  put together are the product of the whole array (`Region0`, `Region2`, `Region4`), and likewise for the bias and
  clip (`Region1`, `Region3`).  It computes the degree weights once and reuses them where the reference computes them
  twice by the same operations (`RefStages`, `Fold`).  And it makes a bias vector a one-row matrix by a reshape where
  the reference broadcasts along an axis: the same matrix.  No law of arithmetic is used beyond these, so the finiteness
  of the inputs is never needed: the mixing step is carried as one function applied to equal arguments.
-/
import proofs.«178289_j64682207478387_1_alg».proof.Defs
import proofs.«178289_j64682207478387_1_alg».proof.Proof.Gen.Kernel
import proofs.«178289_j64682207478387_1_alg».proof.Proof.Gen.Kernel.Skeleton
import proofs.«178289_j64682207478387_1_alg».proof.Proof.Gen.Kernel.Launch
import proofs.«178289_j64682207478387_1_alg».proof.Proof.Gen.Kernel.Points
import proofs.«178289_j64682207478387_1_alg».proof.Proof.Gen.Kernel.Frame
import proofs.«178289_j64682207478387_1_alg».proof.Proof.Gen.KernelIdeal
import proofs.«178289_j64682207478387_1_alg».proof.Proof.Gen.KernelIdeal.Skeleton
import proofs.«178289_j64682207478387_1_alg».proof.Proof.Gen.KernelIdeal.Launch
import proofs.«178289_j64682207478387_1_alg».proof.Proof.Gen.KernelIdeal.Points
import proofs.«178289_j64682207478387_1_alg».proof.Proof.Gen.KernelIdeal.Frame
import proofs.«178289_j64682207478387_1_alg».proof.Proof.Gen.ReferenceIdeal
import proofs.«178289_j64682207478387_1_alg».proof.Proof.Gen.Pre_finite_inputs
import proofs.«178289_j64682207478387_1_alg».proof.Proof.Gen.ReferenceIdeal.Run
import proofs.«178289_j64682207478387_1_alg».proof.Proof.Gen.ReferenceIdeal.Read
import proofs.«178289_j64682207478387_1_alg».proof.Proof.KernelRun
import proofs.«178289_j64682207478387_1_alg».proof.Proof.Fold
import proofs.«178289_j64682207478387_1_alg».proof.Proof.RefStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel program over the extended reals. -/
theorem preserves : Cert.preserves_Kernel_KernelIdeal := trivial

/-- From memories that agree on the nine arguments both programs end with the network of those arguments in their
    result array: the kernel's program by the walk through its segment boundaries, the reference by its stages. -/
theorem algebraic : Cert.algebraic_KernelIdeal_ReferenceIdeal := by
  intro m ρ m' ρ' _ hagree
  refine ⟨fun c => Cert.KernelIdeal.Chain.layers (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v100_eq, Cert.ReferenceIdeal.Stages.result_eq]
    obtain ⟨a0, a1, a2, a3, a4, a5, a6, a7, a8⟩ := hagree c
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
